-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x256 .f32) (main_arg1 : FVec F S256x128 .f32) (main_arg2 : FVec F S128 .f32) (main_arg3 : IVec S1600000 32) (main_arg4 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x256 : Shape := ⟨2, ![100000, 256]⟩
abbrev S256x128 : Shape := ⟨2, ![256, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩

abbrev nBuf : Space → Nat
  | .hbm => 36
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x256, .f32⟩
  | .hbm, ⟨20, _⟩ => ⟨S100000x256, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The two array functions of a graph convolution with symmetric degree normalization, on extended reals.

  With `x` the node features (100000 × 256), `n` the column of the nodes' normalizing factors (100000 × 1) and `w` the
  weights (256 × 128), the PROJECTED rows are  proj x n w (p, q) = Σ_k (x(p, k) · n(p, 0)) · w(k, q)  — every feature row
  scaled by its node's factor, then multiplied by the weights. With `a` the rows aggregated over the incoming edges
  (100000 × 128) and `b` the bias as a row (1 × 128), the RESULT is  fin a n b (p, q) = a(p, q) · n(p, 0) + b(0, q);
  `rowOf` lays a vector of 128 entries out as that row.
  Both are written with the products grouped and the sums ordered exactly as here; no law of arithmetic is needed to
  match either program against them, so nothing is assumed finite.
-/
import Idealize.ShloMosaic.Lib.ValueIdx
import Idealize.ShloMosaic.PureOps.Ideal

noncomputable section

open scoped BigOperators

namespace Cert.GraphConv

open Idealize.ShloMosaic Idealize.ShloMosaic.ValueIdx

/-- Entry (p, q) of the projected rows: row `p` of the features, scaled by node `p`'s factor, against column `q` of the
    weights. -/
def projAt (x : (⟨2, ![100000, 256]⟩ : Shape).Idx → EReal) (n : (⟨2, ![100000, 1]⟩ : Shape).Idx → EReal)
    (w : (⟨2, ![256, 128]⟩ : Shape).Idx → EReal) (p : Fin 100000) (q : Fin 128) : EReal :=
  ∑ k : Fin 256, (x (ix2 p k) * n (ix2 p (0 : Fin 1))) * w (ix2 k q)

/-- The projected rows as one array. -/
def proj (x : (⟨2, ![100000, 256]⟩ : Shape).Idx → EReal) (n : (⟨2, ![100000, 1]⟩ : Shape).Idx → EReal)
    (w : (⟨2, ![256, 128]⟩ : Shape).Idx → EReal) : (⟨2, ![100000, 128]⟩ : Shape).Idx → EReal :=
  fun i => projAt x n w (i 0) (i 1)

/-- Entry (p, q) of the result: the aggregated row's entry scaled by node `p`'s factor, plus the bias of column `q`. -/
def finAt (a : (⟨2, ![100000, 128]⟩ : Shape).Idx → EReal) (n : (⟨2, ![100000, 1]⟩ : Shape).Idx → EReal)
    (b : (⟨2, ![1, 128]⟩ : Shape).Idx → EReal) (p : Fin 100000) (q : Fin 128) : EReal :=
  a (ix2 p q) * n (ix2 p (0 : Fin 1)) + b (ix2 (0 : Fin 1) q)

/-- The result as one array. -/
def fin (a : (⟨2, ![100000, 128]⟩ : Shape).Idx → EReal) (n : (⟨2, ![100000, 1]⟩ : Shape).Idx → EReal)
    (b : (⟨2, ![1, 128]⟩ : Shape).Idx → EReal) : (⟨2, ![100000, 128]⟩ : Shape).Idx → EReal :=
  fun i => finAt a n b (i 0) (i 1)

/-- A vector of 128 entries as a 1 × 128 row: entry (0, q) is entry q. -/
def rowOf (b : (⟨1, ![128]⟩ : Shape).Idx → EReal) : (⟨2, ![1, 128]⟩ : Shape).Idx → EReal :=
  fun i => b (ix1 (i 1))

theorem rowOf_ix2 (b : (⟨1, ![128]⟩ : Shape).Idx → EReal) (u : Fin 1) (q : Fin 128) :
    rowOf b (ix2 u q) = b (ix1 q) := rfl

theorem proj_ix2 (x : (⟨2, ![100000, 256]⟩ : Shape).Idx → EReal) (n : (⟨2, ![100000, 1]⟩ : Shape).Idx → EReal)
    (w : (⟨2, ![256, 128]⟩ : Shape).Idx → EReal) (p : Fin 100000) (q : Fin 128) :
    proj x n w (ix2 p q) = projAt x n w p q := rfl

theorem fin_ix2 (a : (⟨2, ![100000, 128]⟩ : Shape).Idx → EReal) (n : (⟨2, ![100000, 1]⟩ : Shape).Idx → EReal)
    (b : (⟨2, ![1, 128]⟩ : Shape).Idx → EReal) (p : Fin 100000) (q : Fin 128) :
    fin a n b (ix2 p q) = finAt a n b p q := rfl

end Cert.GraphConv

end
-- ==== Proof.Stages.lean ====
/-
  The kernel program's host operations, read as values: what its two calls are handed.

  Before the first call the host computes, from the destination indices alone, the nodes' normalizing column — the
  in-degree histogram (a scatter-add of ones), clipped below at one, raised to the power -1/2, as a 100000 × 1 column.
  These are the reference's own first operations, so the column is the reference's. The features and the weights reach
  the first call as launched. Between the calls the host gathers the projected rows at the (wrapped) source indices,
  widens them (the identity on extended reals), scatter-adds them at the destination indices into a zero array, and
  reshapes the bias into a row; the column is untouched by the first call and by these operations. The edge stage is
  again the reference's own chain of operations, applied to whatever array of projected rows it is given.
-/
import proofs.«119048_j14001593385076_2_alg».proof.Proof.Gen.KernelIdeal.Frame
import proofs.«119048_j14001593385076_2_alg».proof.Proof.Gen.ReferenceIdeal.Read
import proofs.«119048_j14001593385076_2_alg».proof.Proof.Spec
import Idealize.ShloMosaic.Lib.StableHlo.Run
import Idealize.ShloMosaic.Lib.ValueLayout
import Idealize.ShloMosaic.Lib.ValueIdx

noncomputable section

namespace Cert.KernelIdeal.Stages

open Cert.KernelIdeal Cert.KernelIdeal.Gen Idealize.ShloMosaic Idealize.ShloMosaic.TcCoe Idealize.SL.Sem
open Idealize.ShloMosaic.ValueIdx
open Idealize.ShloMosaic.Pipeline (Dat)
open Cert.GraphConv

/-! ## The edge stage as one function -/

/-- The host operations between the calls that produce the aggregated rows, as one function of the projected rows
    `h`, the source indices `s` and the destination indices `d`: gather the rows of `h` at the sources (a negative
    index wrapped by the number of nodes), widen, and scatter-add them at the destinations into zeros. -/
def edgeStage (h : (⟨S100000x128, .bf16⟩ : BufTy).Contents (Elt Ideal))
    (s d : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (extf .f32 (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

/-- Applied to the reference's matrix product, the edge stage is the reference's aggregated rows: the same gather and
    scatter-add with the same indices, the widening the identity. -/
theorem edgeStage_reference (x0 : (⟨S100000x256, .f32⟩ : BufTy).Contents (Elt Ideal))
    (x1 : (⟨S256x128, .f32⟩ : BufTy).Contents (Elt Ideal)) (x3 x4 : (⟨S1600000, .i32⟩ : BufTy).Contents (Elt Ideal)) :
    edgeStage (Cert.ReferenceIdeal.Read.val_main_v10 (F := Ideal) x0 x1 x4) x3 x4
      = Cert.ReferenceIdeal.Read.val_main_v20 (F := Ideal) x0 x1 x3 x4 := rfl

/-! ## The host stretches over any earlier contents

Each stretch of host operations is read once, over an arbitrary valuation `W` of the buffers before it, so that what the
earlier stretches computed stays a name. -/

/-- The first stretch leaves the in-degree histogram of the destinations: ones scatter-added at them into zeros. -/
theorem degree_of (W : Valuation τ sig (Elt Ideal)) :
    StableHlo.after hostOps0 W (Proc.devRef .tc main_v3)
      = Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (W (Proc.devRef .tc main_arg4)))
          (broadcastInDim S1600000 ![] bcast_S_S1600000 (constant (F := Ideal) S_ .f32 0x3F800000#32)) := by
  after_results <;> rfl

/-- … and the clip's lower bound, the constant one. -/
theorem one_of (W : Valuation τ sig (Elt Ideal)) :
    StableHlo.after hostOps0 W (Proc.devRef .tc main_cst_1) = constant (F := Ideal) S_ .f32 0x3F800000#32 := by
  after_results <;> rfl

/-- The second stretch clips the histogram below at the bound. -/
theorem clipped_of (W : Valuation τ sig (Elt Ideal)) :
    StableHlo.after hostOps0_1 W (Proc.devRef .tc main_v4)
      = maximumf (F := Ideal) (φ := .f32)
          (broadcastInDim S100000 ![] bcast_S_S100000
            (id (W (Proc.devRef .tc main_cst_1) : (⟨S_, .f32⟩ : BufTy).Contents (Elt Ideal))))
          (W (Proc.devRef .tc main_v3)) := by
  after_results <;> rfl

/-- The third stretch raises the clipped histogram to the power -1/2 and lays it out as a column. -/
theorem column_of (W : Valuation τ sig (Elt Ideal)) :
    StableHlo.after hostOps0_2 W (Proc.devRef .tc main_v7)
      = broadcastInDim S100000x1 ![0] bcast_S100000_S100000x1_0
          (Host.powf (F := Ideal) (W (Proc.devRef .tc main_v4))
            (broadcastInDim S100000 ![] bcast_S_S100000 (constant (F := Ideal) S_ .f32 0xBF000000#32))) := by
  after_results <;> rfl

/-- The stretch between the calls leaves the edge stage of the first call's result and the two index arrays … -/
theorem agg_of (W : Valuation τ sig (Elt Ideal)) :
    StableHlo.after hostOps1 W (Proc.devRef .tc main_v19)
      = edgeStage (W (Proc.devRef .tc main_v8)) (W (Proc.devRef .tc main_arg3)) (W (Proc.devRef .tc main_arg4)) := by
  after_results <;> rfl

/-- … the bias reshaped into a row … -/
theorem bias_of (W : Valuation τ sig (Elt Ideal)) :
    StableHlo.after hostOps1 W (Proc.devRef .tc main_v20)
      = shapeCast S1x128 (W (Proc.devRef .tc main_arg2)) shapeCasts_S128_S1x128 := by
  after_results <;> rfl

/-- … and the normalizing column as it was. -/
theorem column_kept (W : Valuation τ sig (Elt Ideal)) :
    StableHlo.after hostOps1 W (Proc.devRef .tc main_v7) = W (Proc.devRef .tc main_v7) := by
  after_results <;> rfl

variable (m : (ℓ : Loc nD τ sig) → Buf (Elt Ideal) ℓ) (ρ : Dev nD → PrngReg)

/-! ## Before the first call -/

/-- The features reach the first call as launched. -/
theorem entry_feat (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results <;> rfl

/-- The weights reach the first call as launched. -/
theorem entry_weight (c : Dev nD) : V3 m ρ c main_arg1 = m ((c : Thread nD τ).loc main_arg1) := by
  show StableHlo.after hostOps0_2 (StableHlo.after hostOps0_1 (StableHlo.after hostOps0 (W0 m ρ c))) (Proc.devRef .tc main_arg1) = _
  after_results <;> rfl

/-- The bias, the sources and the destinations are as launched when the first call is entered. -/
theorem entry_bias (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl
theorem entry_src (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem entry_dst (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl

/-- The normalizing column the first call is handed is the reference's, of the destinations as launched. -/
theorem entry_norm (c : Dev nD) :
    V3 m ρ c main_v7 = Cert.ReferenceIdeal.Read.val_main_v7 (F := Ideal) (m ((c : Thread nD τ).loc main_arg4)) := by
  show StableHlo.after hostOps0_2 (StableHlo.after hostOps0_1 (StableHlo.after hostOps0 (W0 m ρ c))) (Proc.devRef .tc main_v7) = _
  rw [column_of, clipped_of, degree_of, one_of]
  have e : W0 m ρ c (Proc.devRef .tc main_arg4) = m ((c : Thread nD τ).loc main_arg4) := rfl
  rw [e]
  rfl

/-! ## After the first call -/

/-- The first call writes none of the bias, the sources and the destinations. -/
theorem mid_bias (c : Dev nD) : W4 m ρ c (Proc.devRef .tc main_arg2) = m ((c : Thread nD τ).loc main_arg2) :=
  (W4_of_ne m ρ c main_arg2 (by decide)).trans (entry_bias m ρ c)
theorem mid_src (c : Dev nD) : W4 m ρ c (Proc.devRef .tc main_arg3) = m ((c : Thread nD τ).loc main_arg3) :=
  (W4_of_ne m ρ c main_arg3 (by decide)).trans (entry_src m ρ c)
theorem mid_dst (c : Dev nD) : W4 m ρ c (Proc.devRef .tc main_arg4) = m ((c : Thread nD τ).loc main_arg4) :=
  (W4_of_ne m ρ c main_arg4 (by decide)).trans (entry_dst m ρ c)

/-- The first call only reads the normalizing column: it leaves the call as it entered. -/
theorem mid_norm (c : Dev nD) :
    W4 m ρ c (Proc.devRef .tc main_v7) = Cert.ReferenceIdeal.Read.val_main_v7 (F := Ideal) (m ((c : Thread nD τ).loc main_arg4)) :=
  (W4_arr m ρ c 1).trans (((dat0 (V3 m ρ) c).arrAt_in 1 rfl _).trans ((A_eq0 (V3 m ρ) c 1).trans (entry_norm m ρ c)))

/-! ## Before the second call -/

/-- The host operations between the calls do not write the normalizing column. -/
theorem exit_norm (c : Dev nD) :
    V5 m ρ c main_v7 = Cert.ReferenceIdeal.Read.val_main_v7 (F := Ideal) (m ((c : Thread nD τ).loc main_arg4)) := by
  have h : V5 m ρ c main_v7 = W4 m ρ c (Proc.devRef .tc main_v7) := column_kept (W4 m ρ c)
  exact h.trans (mid_norm m ρ c)

/-- The second call's bias row is the bias as launched, laid out as a row. -/
theorem exit_bias (c : Dev nD) : V5 m ρ c main_v20 = rowOf (m ((c : Thread nD τ).loc main_arg2)) := by
  have h : V5 m ρ c main_v20 = shapeCast S1x128 (W4 m ρ c (Proc.devRef .tc main_arg2)) shapeCasts_S128_S1x128 :=
    bias_of (W4 m ρ c)
  rw [h, mid_bias]
  funext i
  obtain ⟨u, q, rfl⟩ : ∃ (u : Fin 1) (q : Fin 128), i = ix2 u q := ⟨i 0, i 1, eq_ix2 i⟩
  rw [shapeCast_a_1a_apply, rowOf_ix2]

/-- The second call's aggregated rows are the edge stage of the first call's result and the indices as launched. -/
theorem exit_agg (c : Dev nD) :
    V5 m ρ c main_v19 = edgeStage (W4 m ρ c (Proc.devRef .tc main_v8)) (m ((c : Thread nD τ).loc main_arg3))
      (m ((c : Thread nD τ).loc main_arg4)) := by
  have h : V5 m ρ c main_v19 = edgeStage (W4 m ρ c (Proc.devRef .tc main_v8)) (W4 m ρ c (Proc.devRef .tc main_arg3))
      (W4 m ρ c (Proc.devRef .tc main_arg4)) := agg_of (W4 m ρ c)
  rw [h, mid_src, mid_dst]

end Cert.KernelIdeal.Stages

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.Project.lean ====
/-
  The projecting call, read as a value.

  The call runs over a grid of twenty points; at point t it is handed rows 5000·t … 5000·t + 4999 of the features
  (5000 × 256), the same rows of the normalizing column (5000 × 1) and the whole weight matrix (256 × 128), and writes
  back rows 5000·t … 5000·t + 4999 of its result (5000 × 128). Its body scales every feature row by the row's factor and
  multiplies by the weights into a zero accumulator; the changes of float format on the way are the identity on
  extended reals. So entry (p, q) of the block written at point t is
      Σ_k (x(5000·t + p, k) · n(5000·t + p, 0)) · w(k, q),
  entry (5000·t + p, q) of `proj x n w`; the twenty row blocks tile the array, so the array ends holding `proj x n w` of
  the arrays the call found.
-/
import proofs.«119048_j14001593385076_2_alg».proof.Proof.Gen.KernelIdeal.Frame
import proofs.«119048_j14001593385076_2_alg».proof.Proof.Spec
import proofs.«119048_j14001593385076_2_alg».proof.Proof.LibKeepdims
import proofs.«119048_j14001593385076_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Project

open Cert.KernelIdeal Cert.KernelIdeal.Gen Idealize.ShloMosaic Idealize.ShloMosaic.TcCoe Idealize.SL.Sem
open Idealize.ShloMosaic.ValueIdx
open Idealize.ShloMosaic.Pipeline (Dat)
open Cert.GraphConv

theorem hz : (![0, 0] : Fin 2 → Nat) = fun _ => 0 := funext fun a => by fin_cases a <;> rfl

/-! ## The body's stored value at an entry -/

/-- Entry (p, q) of what the body stores, from the three blocks it loads: the row of the first, scaled by the row's
    entry of the column, against the column `q` of the third. -/
theorem payload_apply (x0 : Vec Ideal S5000x256 .f32) (x1 : Vec Ideal S5000x1 .f32) (x2 : Vec Ideal S256x128 .f32)
    (p : Fin 5000) (q : Fin 128) :
    k0_pay1 (F := Ideal) x0 x1 x2 (ix2 p q)
      = ∑ k : Fin 256, (x0 (ix2 p k) * x1 (ix2 p (0 : Fin 1))) * x2 (ix2 k q) := by
  unfold k0_pay1
  refine (Cert.PlainMatmul.matmul_zero_apply (φ₁ := .bf16) (φ₂ := .bf16) 5000 256 128 none
    (truncf .bf16 (mulf x0 (broadcastTo S5000x256 (shapeCast S5000x1 x1 shapeCasts_S5000x1_S5000x1)
      broadcasts_S5000x1_S5000x256)) bitsLt_bf16_f32)
    (truncf .bf16 x2 bitsLt_bf16_f32) p q).trans ?_
  refine Finset.sum_congr rfl fun k _ => ?_
  rw [truncf_apply, truncf_apply, mulf_apply, Cert.Keepdims.broadcastTo_a1_ab_apply, shapeCast_self]

/-! ## Where the blocks sit in their arrays -/

/-- The block indices over the grid: the features, the column and the result move with the point along the rows; the
    weights stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block at point `t` is row 5000·t + p of the array. -/
def row (t : Fin cfg0.N) (p : Fin 5000) : Fin 100000 :=
  ⟨t.val * 5000 + p.val, by
    have h : t.val < 20 := lt_of_lt_of_eq t.isLt N_0
    have := p.isLt
    omega⟩

variable (V : (c : Dev nD) → (b : Ref sig .tc) → Buf (Elt Ideal) ((c : Thread nD τ).loc b))

/-- The features' block at point `t`, entry (p, k), is entry (5000·t + p, k) of the features. -/
theorem read_feat (c : Dev nD) (t : Fin cfg0.N) (p : Fin 5000) (k : Fin 256) :
    (iblk0 V c 0 t : Vec Ideal S5000x256 .f32) (ix2 p k)
      = (V c main_arg0 : S100000x256.Idx → EReal) (ix2 (row t p) k) := by
  obtain ⟨e0, e1, -⟩ := index_facts t
  unfold iblk0
  rw [View.read_apply]
  show V c main_arg0 _ = V c main_arg0 _
  refine congrArg _ (funext fun a => Fin.ext ?_)
  match a with
  | ⟨0, _⟩ => show win0_0.index t 0 * 5000 + 1 * p.val = t.val * 5000 + p.val; rw [e0]; omega
  | ⟨1, _⟩ => show win0_0.index t 1 * 256 + 1 * k.val = k.val; rw [e1]; omega

/-- The column's block at point `t`, entry (p, 0), is entry (5000·t + p, 0) of the column. -/
theorem read_norm (c : Dev nD) (t : Fin cfg0.N) (p : Fin 5000) :
    (iblk0 V c 1 t : Vec Ideal S5000x1 .f32) (ix2 p (0 : Fin 1))
      = (V c main_v7 : S100000x1.Idx → EReal) (ix2 (row t p) (0 : Fin 1)) := by
  obtain ⟨-, -, e0, e1, -⟩ := index_facts t
  unfold iblk0
  rw [View.read_apply]
  show V c main_v7 _ = V c main_v7 _
  refine congrArg _ (funext fun a => Fin.ext ?_)
  match a with
  | ⟨0, _⟩ => show win0_1.index t 0 * 5000 + 1 * p.val = t.val * 5000 + p.val; rw [e0]; omega
  | ⟨1, _⟩ => show win0_1.index t 1 * 1 + 1 * 0 = 0; rw [e1]

/-- The weights' block at every point is the whole weight matrix. -/
theorem read_weight (c : Dev nD) (t : Fin cfg0.N) (k : Fin 256) (q : Fin 128) :
    (iblk0 V c 2 t : Vec Ideal S256x128 .f32) (ix2 k q)
      = (V c main_arg1 : S256x128.Idx → EReal) (ix2 k q) := by
  obtain ⟨-, -, -, -, e0, e1, -⟩ := index_facts t
  unfold iblk0
  rw [View.read_apply]
  show V c main_arg1 _ = V c main_arg1 _
  refine congrArg _ (funext fun a => Fin.ext ?_)
  match a with
  | ⟨0, _⟩ => show win0_2.index t 0 * 256 + 1 * k.val = k.val; rw [e0]; omega
  | ⟨1, _⟩ => show win0_2.index t 1 * 128 + 1 * q.val = q.val; rw [e1]; omega

/-- The result's block at point `t` of any array `G`, entry (p, q), is entry (5000·t + p, q) of `G`. -/
theorem read_out (c : Dev nD) (G : Buf (Elt Ideal) ((c : Thread nD τ).loc main_v8)) (t : Fin cfg0.N) (p : Fin 5000) (q : Fin 128) :
    (((cfg0.win 3).blk t).view.read (Elt Ideal) G : Vec Ideal S5000x128 .bf16) (ix2 p q)
      = (G : S100000x128.Idx → EReal) (ix2 (row t p) q) := by
  obtain ⟨-, -, -, -, -, -, e0, e1⟩ := index_facts t
  rw [View.read_apply]
  show G _ = G _
  refine congrArg _ (funext fun a => Fin.ext ?_)
  match a with
  | ⟨0, _⟩ => show win0_3.index t 0 * 5000 + 1 * p.val = t.val * 5000 + p.val; rw [e0]; omega
  | ⟨1, _⟩ => show win0_3.index t 1 * 128 + 1 * q.val = q.val; rw [e1]; omega

/-! ## What a point writes back, and the array after the call -/

/-- Point `t` writes back block `t` of the projected rows of the arrays the call found. -/
theorem flushed_proj (c : Dev nD) (t : Fin cfg0.N) :
    (dat0 V c).flushed 3 t
      = ((cfg0.win 3).blk t).view.read (Elt Ideal) (proj (V c main_arg0) (V c main_v7) (V c main_arg1)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  funext j
  obtain ⟨p, q, rfl⟩ : ∃ (p : Fin 5000) (q : Fin 128), j = ix2 p q := ⟨j 0, j 1, eq_ix2 j⟩
  refine (payload_apply _ _ _ p q).trans ?_
  refine Eq.trans ?_ (read_out c (proj (V c main_arg0) (V c main_v7) (V c main_arg1)) t p q).symm
  rw [proj_ix2]
  unfold projAt
  refine Finset.sum_congr rfl fun k _ => ?_
  rw [read_feat V c t p k, read_norm V c t p, read_weight V c t k q]

/-- An index of the result array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v8).slice (win0_3.rect t)).set ↔ _
  rw [View.set_slice_whole, Rect.mem_set_unit]
  exact Iff.rfl

/-- Every index of the result array is in the block of the point its row falls in: row r belongs to point r / 5000. -/
theorem covered (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1⟩ := index_facts t
  refine ⟨t, flush0_3 t, ?_⟩
  rw [mem_block]
  intro a
  match a with
  | ⟨0, _⟩ =>
    show win0_3.index t 0 * 5000 ≤ (i 0).val ∧ (i 0).val < win0_3.index t 0 * 5000 + 5000
    rw [e0, ht]; omega
  | ⟨1, _⟩ =>
    show win0_3.index t 1 * 128 ≤ (i 1).val ∧ (i 1).val < win0_3.index t 1 * 128 + 128
    rw [e1]; omega

/-- After the call its result array holds the projected rows of the arrays it found. -/
theorem array_proj (c : Dev nD) :
    (dat0 V c).arrAt 3 cfg0.N = proj (V c main_arg0) (V c main_v7) (V c main_arg1) :=
  (dat0 V c).arrAt_eq_of_cover 3 _ (fun t _ => flushed_proj V c t) covered

end Cert.KernelIdeal.Project

end
-- ==== Proof.LibRowBroadcast.lean ====
/-
  Two broadcasts along an axis of length one, read at coordinates: a 1 × b row laid along the rows of an a × b matrix,
  and a 1 × 1 cell laid along an a × 1 column. Entry (p, d) of the first is entry (0, d) of the row; every entry of the
  second is the cell: a broadcast reads position 0 of each unit axis of its operand and the result's own coordinate on
  the others.
-/
import Idealize.ShloMosaic.Lib.ValueIdx
import Idealize.ShloMosaic.Lib.Pipeline.Value

namespace Cert.Lib.RowBroadcast

open Idealize.ShloMosaic Idealize.ShloMosaic.ValueIdx

variable {α : Type}

/-- A 1 × b row laid along every row of an a × b matrix (b ≠ 1): entry (p, d) is entry (0, d) of the row. -/
theorem broadcastTo_1b_ab_apply {a b : ℕ} (hb : b ≠ 1) (v : (⟨2, ![1, b]⟩ : Shape).Idx → α)
    (h : (⟨2, ![1, b]⟩ : Shape).Broadcasts ⟨2, ![a, b]⟩) (p : Fin a) (d : Fin b) :
    broadcastTo ⟨2, ![a, b]⟩ v h (ix2 p d) = v (ix2 (0 : Fin 1) d) := by
  refine broadcastTo_apply v h (ix2 p d) (ix2 (0 : Fin 1) d) fun ax => ?_
  match ax with
  | ⟨0, _⟩ => rfl
  | ⟨1, _⟩ =>
    show d.val = if b = 1 then 0 else d.val
    rw [if_neg hb]

/-- A 1 × 1 cell laid along an a × 1 column: every entry is the cell. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

end Cert.Lib.RowBroadcast
-- ==== Proof.Finalize.lean ====
/-
  The finalizing call, read as a value.

  The call runs over a grid of twenty points; at point t it is handed rows 5000·t … 5000·t + 4999 of the aggregated
  rows (5000 × 128), the same rows of the normalizing column (5000 × 1) and the bias as a row (1 × 128), and writes back
  rows 5000·t … 5000·t + 4999 of the result. Its body multiplies every aggregated row by the row's factor and adds the
  bias row. So entry (p, q) of the block written at point t is
      a(5000·t + p, q) · n(5000·t + p, 0) + b(0, q),
  entry (5000·t + p, q) of `fin a n b`; the twenty row blocks tile the array, so the array ends holding `fin a n b` of
  the arrays the call found.
-/
import proofs.«119048_j14001593385076_2_alg».proof.Proof.Gen.KernelIdeal.Frame
import proofs.«119048_j14001593385076_2_alg».proof.Proof.Spec
import proofs.«119048_j14001593385076_2_alg».proof.Proof.LibKeepdims
import proofs.«119048_j14001593385076_2_alg».proof.Proof.LibRowBroadcast
import Idealize.ShloMosaic.Lib.Pipeline.Value
import Idealize.ShloMosaic.Lib.ValueIdx

noncomputable section

namespace Cert.KernelIdeal.Finalize

open Cert.KernelIdeal Cert.KernelIdeal.Gen Idealize.ShloMosaic Idealize.ShloMosaic.TcCoe Idealize.SL.Sem
open Idealize.ShloMosaic.ValueIdx
open Idealize.ShloMosaic.Pipeline (Dat)
open Cert.GraphConv

theorem hz : (![0, 0] : Fin 2 → Nat) = fun _ => 0 := funext fun a => by fin_cases a <;> rfl

/-! ## The body's stored value at an entry -/

/-- Entry (p, q) of what the body stores, from the three blocks it loads: the first's entry times the row's entry of
    the column, plus the row's entry of column `q`. -/
theorem payload_apply (x0 : Vec Ideal S5000x128 .f32) (x1 : Vec Ideal S5000x1 .f32) (x2 : Vec Ideal S1x128 .f32)
    (p : Fin 5000) (q : Fin 128) :
    k1_pay1 (F := Ideal) x0 x1 x2 (ix2 p q)
      = x0 (ix2 p q) * x1 (ix2 p (0 : Fin 1)) + x2 (ix2 (0 : Fin 1) q) := by
  unfold k1_pay1
  rw [addf_apply, mulf_apply, shapeCast_self, shapeCast_self, shapeCast_self,
    Cert.Keepdims.broadcastTo_a1_ab_apply, Cert.Lib.RowBroadcast.broadcastTo_1b_ab_apply (by decide)]

/-! ## Where the blocks sit in their arrays -/

/-- The block indices over the grid: the aggregated rows, the column and the result move with the point along the
    rows; the bias row stays. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the block at point `t` is row 5000·t + p of the array. -/
def row (t : Fin cfg1.N) (p : Fin 5000) : Fin 100000 :=
  ⟨t.val * 5000 + p.val, by
    have h : t.val < 20 := lt_of_lt_of_eq t.isLt N_1
    have := p.isLt
    omega⟩

variable (V : (c : Dev nD) → (b : Ref sig .tc) → Buf (Elt Ideal) ((c : Thread nD τ).loc b))

/-- The aggregated rows' block at point `t`, entry (p, q), is entry (5000·t + p, q) of the aggregated rows. -/
theorem read_agg (c : Dev nD) (t : Fin cfg1.N) (p : Fin 5000) (q : Fin 128) :
    (iblk1 V c 0 t : Vec Ideal S5000x128 .f32) (ix2 p q)
      = (V c main_v19 : S100000x128.Idx → EReal) (ix2 (row t p) q) := by
  obtain ⟨e0, e1, -⟩ := index_facts t
  unfold iblk1
  rw [View.read_apply]
  show V c main_v19 _ = V c main_v19 _
  refine congrArg _ (funext fun a => Fin.ext ?_)
  match a with
  | ⟨0, _⟩ => show win1_0.index t 0 * 5000 + 1 * p.val = t.val * 5000 + p.val; rw [e0]; omega
  | ⟨1, _⟩ => show win1_0.index t 1 * 128 + 1 * q.val = q.val; rw [e1]; omega

/-- The column's block at point `t`, entry (p, 0), is entry (5000·t + p, 0) of the column. -/
theorem read_norm (c : Dev nD) (t : Fin cfg1.N) (p : Fin 5000) :
    (iblk1 V c 1 t : Vec Ideal S5000x1 .f32) (ix2 p (0 : Fin 1))
      = (V c main_v7 : S100000x1.Idx → EReal) (ix2 (row t p) (0 : Fin 1)) := by
  obtain ⟨-, -, e0, e1, -⟩ := index_facts t
  unfold iblk1
  rw [View.read_apply]
  show V c main_v7 _ = V c main_v7 _
  refine congrArg _ (funext fun a => Fin.ext ?_)
  match a with
  | ⟨0, _⟩ => show win1_1.index t 0 * 5000 + 1 * p.val = t.val * 5000 + p.val; rw [e0]; omega
  | ⟨1, _⟩ => show win1_1.index t 1 * 1 + 1 * 0 = 0; rw [e1]

/-- The bias row's block at every point is the whole row. -/
theorem read_bias (c : Dev nD) (t : Fin cfg1.N) (q : Fin 128) :
    (iblk1 V c 2 t : Vec Ideal S1x128 .f32) (ix2 (0 : Fin 1) q)
      = (V c main_v20 : S1x128.Idx → EReal) (ix2 (0 : Fin 1) q) := by
  obtain ⟨-, -, -, -, e0, e1, -⟩ := index_facts t
  unfold iblk1
  rw [View.read_apply]
  show V c main_v20 _ = V c main_v20 _
  refine congrArg _ (funext fun a => Fin.ext ?_)
  match a with
  | ⟨0, _⟩ => show win1_2.index t 0 * 1 + 1 * 0 = 0; rw [e0]
  | ⟨1, _⟩ => show win1_2.index t 1 * 128 + 1 * q.val = q.val; rw [e1]; omega

/-- The result's block at point `t` of any array `G`, entry (p, q), is entry (5000·t + p, q) of `G`. -/
theorem read_out (c : Dev nD) (G : Buf (Elt Ideal) ((c : Thread nD τ).loc main_v21)) (t : Fin cfg1.N) (p : Fin 5000) (q : Fin 128) :
    (((cfg1.win 3).blk t).view.read (Elt Ideal) G : Vec Ideal S5000x128 .f32) (ix2 p q)
      = (G : S100000x128.Idx → EReal) (ix2 (row t p) q) := by
  obtain ⟨-, -, -, -, -, -, e0, e1⟩ := index_facts t
  rw [View.read_apply]
  show G _ = G _
  refine congrArg _ (funext fun a => Fin.ext ?_)
  match a with
  | ⟨0, _⟩ => show win1_3.index t 0 * 5000 + 1 * p.val = t.val * 5000 + p.val; rw [e0]; omega
  | ⟨1, _⟩ => show win1_3.index t 1 * 128 + 1 * q.val = q.val; rw [e1]; omega

/-! ## What a point writes back, and the array after the call -/

/-- Point `t` writes back block `t` of the result function of the arrays the call found. -/
theorem flushed_fin (c : Dev nD) (t : Fin cfg1.N) :
    (dat1 V c).flushed 3 t
      = ((cfg1.win 3).blk t).view.read (Elt Ideal) (fin (V c main_v19) (V c main_v7) (V c main_v20)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  refine (payload_apply _ _ _ p q).trans ?_
  refine Eq.trans ?_ (read_out c (fin (V c main_v19) (V c main_v7) (V c main_v20)) t p q).symm
  rw [fin_ix2]
  unfold finAt
  rw [read_agg V c t p q, read_norm V c t p, read_bias V c t q]

/-- An index of the result array is in point `t`'s block iff each coordinate is in the block's range on its axis. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v21).slice (win1_3.rect t)).set ↔ _
  rw [View.set_slice_whole, Rect.mem_set_unit]
  exact Iff.rfl

/-- Every index of the result array is in the block of the point its row falls in: row r belongs to point r / 5000. -/
theorem covered (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e0, e1⟩ := index_facts t
  refine ⟨t, flush1_3 t, ?_⟩
  rw [mem_block]
  intro a
  match a with
  | ⟨0, _⟩ =>
    show win1_3.index t 0 * 5000 ≤ (i 0).val ∧ (i 0).val < win1_3.index t 0 * 5000 + 5000
    rw [e0, ht]; omega
  | ⟨1, _⟩ =>
    show win1_3.index t 1 * 128 ≤ (i 1).val ∧ (i 1).val < win1_3.index t 1 * 128 + 128
    rw [e1]; omega

/-- After the call its result array holds the result function of the arrays it found. -/
theorem array_fin (c : Dev nD) :
    (dat1 V c).arrAt 3 cfg1.N = fin (V c main_v19) (V c main_v7) (V c main_v20) :=
  (dat1 V c).arrAt_eq_of_cover 3 _ (fun t _ => flushed_fin V c t) covered

end Cert.KernelIdeal.Finalize

end
-- ==== Proof.RefStages.lean ====
/-
  The reference program's stages, read as the two array functions.

  Its matrix product is taken of the features scaled row by row — each feature row times its node's factor, the
  factor read off the normalizing column laid along the 256 feature columns — against the weights: entry (p, q) is
  Σ_k (x(p, k) · n(p, 0)) · w(k, q), the projected rows `proj x n w`. Its last three operations multiply the aggregated
  rows by the same column laid along the 128 output columns and add the bias laid along the rows: entry (p, q) is
  a(p, q) · n(p, 0) + bias(q), the result `fin a n (rowOf bias)`.
-/
import proofs.«119048_j14001593385076_2_alg».proof.Proof.Gen.ReferenceIdeal.Read
import proofs.«119048_j14001593385076_2_alg».proof.Proof.Spec
import Idealize.ShloMosaic.Lib.ValueIdx

noncomputable section

open scoped BigOperators

namespace Cert.ReferenceIdeal.Stages

open Cert.ReferenceIdeal Cert.ReferenceIdeal.Gen Cert.ReferenceIdeal.Read Idealize.ShloMosaic
open Idealize.ShloMosaic.ValueIdx
open Cert.GraphConv

/-! ## The index maps of the layout operations, at coordinates -/

theorem lidx_v10 (p : Fin 100000) (q : Fin 128) (k : Fin 256) : lidx_main_v10 (ix2 p q) k = ix2 p k :=
  funext fun a => Fin.ext (by match a with | ⟨0, _⟩ => rfl | ⟨1, _⟩ => rfl)

theorem ridx_v10 (p : Fin 100000) (q : Fin 128) (k : Fin 256) : ridx_main_v10 (ix2 p q) k = ix2 k q :=
  funext fun a => Fin.ext (by match a with | ⟨0, _⟩ => rfl | ⟨1, _⟩ => rfl)

theorem idx_v8 (p : Fin 100000) (k : Fin 256) : idx_main_v8 (ix2 p k) = ix2 p (0 : Fin 1) :=
  funext fun a => Fin.ext (by match a with | ⟨0, _⟩ => rfl | ⟨1, _⟩ => rfl)

theorem idx_v21 (p : Fin 100000) (q : Fin 128) : idx_main_v21 (ix2 p q) = ix2 p (0 : Fin 1) :=
  funext fun a => Fin.ext (by match a with | ⟨0, _⟩ => rfl | ⟨1, _⟩ => rfl)

theorem idx_v24_v23 (p : Fin 100000) (q : Fin 128) : idx_main_v23 (idx_main_v24 (ix2 p q)) = ix1 q :=
  funext fun a => Fin.ext (by match a with | ⟨0, _⟩ => rfl)

/-! ## The two stages -/

/-- The reference's matrix product is the projected rows of the features, its own normalizing column and the weights. -/
theorem product_eq_proj (x0 : (⟨S100000x256, .f32⟩ : BufTy).Contents (Elt Ideal))
    (x1 : (⟨S256x128, .f32⟩ : BufTy).Contents (Elt Ideal)) (x4 : (⟨S1600000, .i32⟩ : BufTy).Contents (Elt Ideal)) :
    val_main_v10 (F := Ideal) x0 x1 x4 = proj x0 (val_main_v7 (F := Ideal) x4) x1 := by
  funext i
  obtain ⟨p, q, rfl⟩ : ∃ (p : Fin 100000) (q : Fin 128), i = ix2 p q := ⟨i 0, i 1, eq_ix2 i⟩
  rw [val_main_v10_apply, proj_ix2]
  unfold projAt
  refine Finset.sum_congr rfl fun k _ => ?_
  rw [val_main_v9_apply, val_main_v8_apply, lidx_v10, ridx_v10, idx_v8]
  rfl

/-- The reference's result is the result function of its aggregated rows, its normalizing column and the bias row. -/
theorem result_eq_fin (x0 : (⟨S100000x256, .f32⟩ : BufTy).Contents (Elt Ideal))
    (x1 : (⟨S256x128, .f32⟩ : BufTy).Contents (Elt Ideal)) (x2 : (⟨S128, .f32⟩ : BufTy).Contents (Elt Ideal))
    (x3 x4 : (⟨S1600000, .i32⟩ : BufTy).Contents (Elt Ideal)) :
    val_main_v25 (F := Ideal) x0 x1 x2 x3 x4
      = fin (val_main_v20 (F := Ideal) x0 x1 x3 x4) (val_main_v7 (F := Ideal) x4) (rowOf x2) := by
  funext i
  obtain ⟨p, q, rfl⟩ : ∃ (p : Fin 100000) (q : Fin 128), i = ix2 p q := ⟨i 0, i 1, eq_ix2 i⟩
  rw [val_main_v25_apply, val_main_v22_apply, val_main_v21_apply, val_main_v24_apply, val_main_v23_apply,
    idx_v21, idx_v24_v23, fin_ix2]
  rfl

end Cert.ReferenceIdeal.Stages

end
-- ==== Proof.RunOut.lean ====
/-
  The idealized kernel program's run with its RESULT named.

  The program is three stretches of host operations (the in-degree histogram of the destination indices, its clip
  at one, its power -1/2 as a column), the projecting call over a grid of twenty row blocks, one more stretch of host
  operations (the gather of the projected rows along the edges' sources and their scatter-add at the edges'
  destinations, and the bias as a row), and the finalizing call, again over twenty row blocks. Every weakly fair
  execution terminates without a fault; it ends with the result array at what the second call's twenty write-backs
  leave in it, and with the five argument arrays as launched. The statement differs from the frame claim only in
  that it also reads the result buffer off the last thread state.
-/
import proofs.«119048_j14001593385076_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the second call's output window, so after the last segment it holds what that
    call's write-backs leave. -/
theorem result_buffer (c : Dev nD) :
    W6 m ρ c (Proc.devRef .tc main_v21) = (dat1 (V5 m ρ) c).arrAt 3 cfg1.N :=
  W6_arr m ρ c 3

set_option backward.isDefEq.respectTransparency.types false in
/-- Every weakly fair execution of the program terminates, nothing faulting, with the result array at the second
    call's folded write-backs and the arguments unchanged. -/
theorem run_out : θ_run defs (onTc (τ := τ) (main (F := F))) ⟨m, fun _ => 0, ρ⟩ (fun r => ∀ c : Dev nD,
      r.2.mem ((c.tc : Thread nD τ).loc main_v21) = (dat1 (V5 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v21 (by decide))).trans (result_buffer m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Out

end
-- ==== Proof.Whole.lean ====
/-
  The kernel program's result as one function of its arguments.

  The first call leaves the projected rows of the features, the normalizing column and the weights; the reference's
  matrix product is the same array. The edge stage of that array is therefore the reference's aggregated rows, and the
  second call leaves the result function of those rows, the same column and the bias row:
      result(p, q) = agg(p, q) · n(p, 0) + bias(q),
  with `agg` and `n` the reference's own intermediate arrays of the launched arguments.
-/
import proofs.«119048_j14001593385076_2_alg».proof.Proof.Stages
import proofs.«119048_j14001593385076_2_alg».proof.Proof.Project
import proofs.«119048_j14001593385076_2_alg».proof.Proof.Finalize
import proofs.«119048_j14001593385076_2_alg».proof.Proof.RefStages
import proofs.«119048_j14001593385076_2_alg».proof.Proof.RunOut

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.GraphConv

variable (m : (ℓ : Loc nD τ sig) → Buf (Elt Ideal) ℓ) (ρ : Dev nD → PrngReg)

/-- After the first call its result array holds the reference's matrix product of the launched arguments: both are
    the projected rows of the features, the normalizing column and the weights. -/
theorem mid_proj (c : Dev nD) :
    W4 m ρ c (Proc.devRef .tc main_v8)
      = Cert.ReferenceIdeal.Read.val_main_v10 (F := Ideal) (m ((c : Thread nD τ).loc main_arg0))
          (m ((c : Thread nD τ).loc main_arg1)) (m ((c : Thread nD τ).loc main_arg4)) :=
  (W4_arr m ρ c 3).trans ((Project.array_proj (V3 m ρ) c).trans (by
    rw [Stages.entry_feat m ρ c, Stages.entry_norm m ρ c, Stages.entry_weight m ρ c,
      ← Cert.ReferenceIdeal.Stages.product_eq_proj]))

/-- After the second call its result array holds the result function of the reference's aggregated rows, the
    reference's normalizing column and the bias row, all of the launched arguments. -/
theorem result_eq (c : Dev nD) :
    (dat1 (V5 m ρ) c).arrAt 3 cfg1.N
      = fin (Cert.ReferenceIdeal.Read.val_main_v20 (F := Ideal) (m ((c : Thread nD τ).loc main_arg0))
              (m ((c : Thread nD τ).loc main_arg1)) (m ((c : Thread nD τ).loc main_arg3)) (m ((c : Thread nD τ).loc main_arg4)))
            (Cert.ReferenceIdeal.Read.val_main_v7 (F := Ideal) (m ((c : Thread nD τ).loc main_arg4)))
            (rowOf (m ((c : Thread nD τ).loc main_arg2))) :=
  (Finalize.array_fin (V5 m ρ) c).trans (by
    rw [Stages.exit_agg m ρ c, mid_proj m ρ c, Stages.edgeStage_reference, Stages.exit_norm m ρ c,
      Stages.exit_bias m ρ c])

/-- Every weakly fair execution of the kernel program terminates, nothing faulting, with the result array at that
    function of the launched arguments and the arguments unchanged. -/
theorem run : θ_run defs (onTc (τ := τ) (main (F := Ideal))) ⟨m, fun _ => 0, ρ⟩ (fun r => ∀ c : Dev nD,
      r.2.mem ((c.tc : Thread nD τ).loc main_v21)
        = fin (Cert.ReferenceIdeal.Read.val_main_v20 (F := Ideal) (m ((c : Thread nD τ).loc main_arg0))
              (m ((c : Thread nD τ).loc main_arg1)) (m ((c : Thread nD τ).loc main_arg3)) (m ((c : Thread nD τ).loc main_arg4)))
            (Cert.ReferenceIdeal.Read.val_main_v7 (F := Ideal) (m ((c : Thread nD τ).loc main_arg4)))
            (rowOf (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Out.run_out m ρ)

end Cert.KernelIdeal.Whole

end
-- ==== Proof.lean ====
/-
  The certificate of a graph convolution with symmetric degree normalization, a kernel program of two calls against
  its reference.

  Both programs compute, from the destination indices, the nodes' factors n = max(in-degree, 1)^(-1/2); project the
  feature rows scaled by their factors through the weights, h(p, q) = Σ_k (x(p, k) · n(p)) · w(k, q); sum h over the
  incoming edges, agg = scatter-add over the destinations of the rows of h gathered at the sources; and return
  agg(p, q) · n(p) + bias(q). The kernel program does the projection and the last step in two calls over twenty row
  blocks each, rounding to a shorter float format around its matrix product; on extended reals those roundings are the
  identity and a blocked product into a zero accumulator is the plain sum, so the first call's array IS the
  reference's matrix product, term for term. The host operations for the factors and for the edge stage are the same in
  both programs, and the last step is the same product and sum. No law of arithmetic beyond reading each operation at
  an index is used, so the inputs' finiteness is never opened.
  The three frames: the kernel programs' are the generated frame certificates; the reference's is its generated run
  with the result dropped. The idealization rewrote nothing, so its conjunct is `True`.
-/
import proofs.«119048_j14001593385076_2_alg».proof.Defs
import proofs.«119048_j14001593385076_2_alg».proof.Proof.Gen.Kernel
import proofs.«119048_j14001593385076_2_alg».proof.Proof.Gen.Kernel.Skeleton
import proofs.«119048_j14001593385076_2_alg».proof.Proof.Gen.Kernel.Launch
import proofs.«119048_j14001593385076_2_alg».proof.Proof.Gen.Kernel.Points
import proofs.«119048_j14001593385076_2_alg».proof.Proof.Gen.Kernel.Frame
import proofs.«119048_j14001593385076_2_alg».proof.Proof.Gen.KernelIdeal
import proofs.«119048_j14001593385076_2_alg».proof.Proof.Gen.KernelIdeal.Skeleton
import proofs.«119048_j14001593385076_2_alg».proof.Proof.Gen.KernelIdeal.Launch
import proofs.«119048_j14001593385076_2_alg».proof.Proof.Gen.KernelIdeal.Points
import proofs.«119048_j14001593385076_2_alg».proof.Proof.Gen.KernelIdeal.Frame
import proofs.«119048_j14001593385076_2_alg».proof.Proof.Gen.ReferenceIdeal
import proofs.«119048_j14001593385076_2_alg».proof.Proof.Gen.Pre_finite_inputs
import proofs.«119048_j14001593385076_2_alg».proof.Proof.Gen.ReferenceIdeal.Run
import proofs.«119048_j14001593385076_2_alg».proof.Proof.Gen.ReferenceIdeal.Read
import proofs.«119048_j14001593385076_2_alg».proof.Proof.Whole
import proofs.«119048_j14001593385076_2_alg».proof.Proof.RefStages
import Idealize.ShloMosaic.Adequacy
import Idealize.ShloMosaic.Init

noncomputable section

namespace Cert.Proof

open Idealize.ShloMosaic Idealize.ShloMosaic.TcCoe Idealize.SL.Sem
open Cert.GraphConv

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result function of the reference's aggregated
    rows, the reference's normalizing column and the bias row. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  exact (Cert.ReferenceIdeal.Read.val_main_v25_eq _ _ _ _ _).trans (Cert.ReferenceIdeal.Stages.result_eq_fin _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
